-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S165x64 : Shape := ⟨2, ![165, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x64 : S_.BroadcastsInDim S165x64 (![] : Fin 0 → Fin S165x64.rank)
  reducesTo_S165x64_S_d0_1 : S165x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S64x2 .f32) (main_arg9 : FVec F S2 .f32) (main_v13 : IVec S_ 1) (main_v16 : IVec S165x64 1) : IVec S_ 1 :=
  let main_c_5 : IVec S_ 1 := constantI S_ 1 1#1
  let main_v17 : IVec S_ 1 := (fun x v => Host.reduce IntOp.andi x v reducesTo_S165x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x165 .f32) (main_arg1 : IVec S2x1600000 32) (main_arg2 : FVec F S165x64 .f32) (main_arg3 : FVec F S64 .f32) (main_arg4 : FVec F S165x64 .f32) (main_arg5 : FVec F S64x64 .f32) (main_arg6 : FVec F S64 .f32) (main_arg7 : FVec F S64x64 .f32) (main_arg8 : FVec F S64x2 .f32) (main_arg9 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x64 .f32 := Host.absf main_arg2
  let main_cst_0 : FVec F S_ .f32 := constant S_ .f32 0x7F800000#32
  let main_v5 : FVec F S165x64 .f32 := broadcastInDim S165x64 ![] bcast_S_S165x64 main_cst_0
  let main_v6 : IVec S165x64 1 := cmpf .olt main_v4 main_v5
  let main_c_1 : IVec S_ 1 := constantI S_ 1 1#1
  let main_v7 : IVec S_ 1 := (fun x v => Host.reduce IntOp.andi x v reducesTo_S165x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S165x64 .f32 := Host.absf main_arg4
  let main_cst_4 : FVec F S_ .f32 := constant S_ .f32 0x7F800000#32
  let main_v15 : FVec F S165x64 .f32 := broadcastInDim S165x64 ![] bcast_S_S165x64 main_cst_4
  let main_v16 : IVec S165x64 1 := cmpf .olt main_v14 main_v15
  fn_part1 (F := F) main_arg5 main_arg6 main_arg7 main_arg8 main_arg9 main_v13 main_v16
-- ==== Kernel.lean ====
abbrev S100000x165 : Shape := ⟨2, ![100000, 165]⟩
abbrev S2x1600000 : Shape := ⟨2, ![2, 1600000]⟩
abbrev S165x64 : Shape := ⟨2, ![165, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S100000x1 : Shape := ⟨2, ![100000, 1]⟩
abbrev S1x64 : Shape := ⟨2, ![1, 64]⟩
abbrev S100000x64 : Shape := ⟨2, ![100000, 64]⟩
abbrev S5000x165 : Shape := ⟨2, ![5000, 165]⟩
abbrev S5000x64 : Shape := ⟨2, ![5000, 64]⟩
abbrev S1600000x64 : Shape := ⟨2, ![1600000, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 67
  | .vmem => 20
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x64, .f32⟩
  | .hbm, ⟨3, _⟩ => ⟨S64, .f32⟩
  | .hbm, ⟨4, _⟩ => ⟨S165x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x165, .f32⟩
  | .hbm, ⟨23, _⟩ => ⟨S_, .f32⟩
  | .hbm, ⟨24, _⟩ => ⟨S100000x165, .f32⟩
  | .hbm, ⟨25, _⟩ => ⟨S1600000x1, .i32⟩
  | .hbm, ⟨26, _⟩ => ⟨S100000x165, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x165, .f32⟩
  | .hbm, ⟨37, _⟩ => ⟨S100000x165, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S_, .f32⟩
  | .hbm, ⟨54, _⟩ => ⟨S1600000x1, .f32⟩
  | .hbm, ⟨55, _⟩ => ⟨S_, .f32⟩
  | .hbm, ⟨56, _⟩ => ⟨S100000x1, .f32⟩
  | .hbm, ⟨57, _⟩ => ⟨S1600000x1, .i32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S1x2, .f32⟩
  | .hbm, ⟨66, _⟩ => ⟨S100000x2, .f32⟩
  | .local _ .vmem, ⟨0, _⟩ => ⟨S5000x165, .f32⟩
  | .local _ .vmem, ⟨1, _⟩ => ⟨S5000x165, .f32⟩
  | .local _ .vmem, ⟨2, _⟩ => ⟨S5000x165, .f32⟩
  | .local _ .vmem, ⟨3, _⟩ => ⟨S5000x165, .f32⟩
  | .local _ .vmem, ⟨4, _⟩ => ⟨S165x64, .f32⟩
  | .local _ .vmem, ⟨5, _⟩ => ⟨S1x64, .f32⟩
  | .local _ .vmem, ⟨6, _⟩ => ⟨S165x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S165x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S165x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x165_0_1 : S100000x1.BroadcastsInDim S100000x165 (![0, 1] : Fin 2 → Fin S100000x165.rank)
  shapeCasts_S64_S1x64 : S64.ShapeCasts S1x64
  inb_S5000x165_S5000x165_0_0 : ∀ a, (![0, 0] : Fin 2 → Nat) a + S5000x165.size a ≤ S5000x165.size a
  h_S5000x165 : 0 < S5000x165.numel
  shapeCasts_S5000x165_S5000x165 : S5000x165.ShapeCasts S5000x165
  bitsLt_bf16_f32 : FTy.bits .bf16 < FTy.bits .f32
  inb_S165x64_S165x64_0_0 : ∀ a, (![0, 0] : Fin 2 → Nat) a + S165x64.size a ≤ S165x64.size a
  h_S165x64 : 0 < S165x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S2_S1x2 : S2.ShapeCasts S1x2
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  scatter_S100000x1_S1600000x1_S1600000x1_1_0_0_1_wf : ScatterDims.WF S100000x1 S1600000x1 S1600000x1 [1] [0] [0] 1
  dot_S5000x165_S165x64_S5000x64_1_0_0_1_n_n_wf : DotDims.WF S5000x165 S165x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x165.size a ≤ S100000x165.size a
  hwx0_0 : ∀ i : grid0.Coords, EltTy.bits .f32 = 32 ∨ (Rect.block (s := S100000x165) S5000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x165.size a ≤ S100000x165.size a
  hwx0_1 : ∀ i : grid0.Coords, EltTy.bits .f32 = 32 ∨ (Rect.block (s := S100000x165) S5000x165.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S165x64.size a ≤ S165x64.size a
  hwx0_2 : ∀ i : grid0.Coords, EltTy.bits .f32 = 32 ∨ (Rect.block (s := S165x64) S165x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S165x64.size a ≤ S165x64.size a
  hwx0_4 : ∀ i : grid0.Coords, EltTy.bits .f32 = 32 ∨ (Rect.block (s := S165x64) S165x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x165_S165x64_S5000x64_1_0_0_1_n_n : DotDims S5000x165 S165x64 S5000x64 where
  lhsContracting := [1]
  rhsContracting := [0]
  lhsNonContracting := [0]
  rhsNonContracting := [1]
  lhsBatch := []
  rhsBatch := []
  wf := dot_S5000x165_S165x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v21) S5000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S165x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S165x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S165x64 : Shape := ⟨2, ![165, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x2 : Shape := ⟨2, ![100000, 2]⟩
abbrev S1x2 : Shape := ⟨2, ![1, 2]⟩

abbrev nBuf : Space → Nat
  | .hbm => 84
  | .vmem => 0
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x64, .f32⟩
  | .hbm, ⟨3, _⟩ => ⟨S64, .f32⟩
  | .hbm, ⟨4, _⟩ => ⟨S165x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x165, .f32⟩
  | .hbm, ⟨23, _⟩ => ⟨S_, .f32⟩
  | .hbm, ⟨24, _⟩ => ⟨S100000x165, .f32⟩
  | .hbm, ⟨25, _⟩ => ⟨S1600000x1, .i32⟩
  | .hbm, ⟨26, _⟩ => ⟨S100000x165, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x165, .f32⟩
  | .hbm, ⟨37, _⟩ => ⟨S100000x165, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S_, .f32⟩
  | .hbm, ⟨61, _⟩ => ⟨S1600000x1, .f32⟩
  | .hbm, ⟨62, _⟩ => ⟨S_, .f32⟩
  | .hbm, ⟨63, _⟩ => ⟨S100000x1, .f32⟩
  | .hbm, ⟨64, _⟩ => ⟨S1600000x1, .i32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x2, .f32⟩
  | .hbm, ⟨81, _⟩ => ⟨S1x2, .f32⟩
  | .hbm, ⟨82, _⟩ => ⟨S100000x2, .f32⟩
  | .hbm, ⟨83, _⟩ => ⟨S100000x2, .f32⟩
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_cst : Ref sig .tc := ⟨.hbm, 44, rfl⟩
abbrev main_call0_v0 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_cst : Ref sig .tc := ⟨.hbm, 77, rfl⟩
abbrev main_call1_v0 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x165_0_1 : S100000x1.BroadcastsInDim S100000x165 (![0, 1] : Fin 2 → Fin S100000x165.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  scatter_S100000x1_S1600000x1_S1600000x1_1_0_0_1_wf : ScatterDims.WF S100000x1 S1600000x1 S1600000x1 [1] [0] [0] 1
  dot_S100000x165_S165x64_S100000x64_1_0_0_1_n_n_wf : DotDims.WF S100000x165 S165x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x165_S165x64_S100000x64_1_0_0_1_n_n : DotDims S100000x165 S165x64 S100000x64 where
  lhsContracting := [1]
  rhsContracting := [0]
  lhsNonContracting := [0]
  rhsNonContracting := [1]
  lhsBatch := []
  rhsBatch := []
  wf := dot_S100000x165_S165x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KernelRun.lean ====
/-
  The kernel program's run with its RESULT named.

  The program is two kernel regions among stretches of host operations.  Its run ends with every buffer that outlives
  a region at the contents the fold through the program gives it (launch memory, each stretch's operations applied, each
  region's arrays at what its write-backs leave).  Read at the argument arrays this is the frame; read at the result
  array it names the result: what the second region's write-backs leave in its output array.
-/
import proofs.«105164_j81226421502183_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, and every buffer that outlives a region ends at the last boundary's
    contents: the launch over the program's segments, the last thread state read against the final state. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array ends at what the second region's write-backs leave in its output array; the arguments end as
    launched. -/
theorem run_out : θ_run defs (onTc (τ := τ) (main (F := F))) ⟨m, fun _ => 0, ρ⟩ (fun r => ∀ c : Dev nD,
      r.2.mem ((c.tc : Thread nD τ).loc main_v44) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c _ (mem_uc main_v44 (by decide))).trans (W4_arr m ρ c 7),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_held m ρ)

end Cert.KernelIdeal.Whole

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.Layers.lean ====
/-
  The two dense stages of a mean-aggregating graph convolution, as functions of whole arrays on the extended reals.

  * `sage a x wl b wr`: at row `r` and column `c`,
      max ( Σ_k a(r,k)·wl(k,c)  +  b(0,c)  +  Σ_k x(r,k)·wr(k,c) ,  0 ),
    the neighbour path (aggregated features times the left weight, plus the bias row), the root path (the node's own
    features times the right weight), and the rectifier.
  * `affine h w b`: at row `r` and column `c`,  Σ_k h(r,k)·w(k,c) + b(0,c),  the final linear classifier.

  Both depend, at row `r`, only on row `r` of their row-indexed operands: that is what lets a block of rows be computed
  from the same block of rows (`sage_rows`, `affine_rows`).  No law of the extended reals beyond congruence is used,
  so nothing here asks the entries to be finite.
-/
import Idealize.ShloMosaic.PureOps.Ideal
import Idealize.ShloMosaic.Lib.ValueIdx

noncomputable section

namespace Cert.Sage

open Idealize.ShloMosaic Idealize.ShloMosaic.ValueIdx

/-- One graph-convolution layer after aggregation: neighbour path plus bias plus root path, rectified. -/
def sage {N K C : Nat} (a x : (⟨2, ![N, K]⟩ : Shape).Idx → EReal) (wl : (⟨2, ![K, C]⟩ : Shape).Idx → EReal)
    (b : (⟨2, ![1, C]⟩ : Shape).Idx → EReal) (wr : (⟨2, ![K, C]⟩ : Shape).Idx → EReal) : (⟨2, ![N, C]⟩ : Shape).Idx → EReal :=
  fun i => max ((∑ k : Fin K, a (ix2 (i 0) k) * wl (ix2 k (i 1))) + b (ix2 0 (i 1)) + ∑ k : Fin K, x (ix2 (i 0) k) * wr (ix2 k (i 1)))
    (Ideal.ofBits .f32 0x00000000#32)

/-- The linear classifier: a product with the weight plus the bias row. -/
def affine {N K C : Nat} (h : (⟨2, ![N, K]⟩ : Shape).Idx → EReal) (w : (⟨2, ![K, C]⟩ : Shape).Idx → EReal)
    (b : (⟨2, ![1, C]⟩ : Shape).Idx → EReal) : (⟨2, ![N, C]⟩ : Shape).Idx → EReal :=
  fun i => (∑ k : Fin K, h (ix2 (i 0) k) * w (ix2 k (i 1))) + b (ix2 0 (i 1))

/-- A bias vector laid out as the one row a layer adds to every row of its product. -/
def row {C : Nat} (b : (⟨1, ![C]⟩ : Shape).Idx → EReal) : (⟨2, ![1, C]⟩ : Shape).Idx → EReal := fun i => b (ix1 (i 1))

theorem row_apply {C : Nat} (b : (⟨1, ![C]⟩ : Shape).Idx → EReal) (u : Fin 1) (c : Fin C) : row b (ix2 u c) = b (ix1 c) := rfl

/-- An index of a two-axis array is the pair of its coordinates. -/
theorem pair_eq {n0 n1 : Nat} (f : (⟨2, ![n0, n1]⟩ : Shape).Idx) (a : Fin n0) (b : Fin n1)
    (h0 : (f 0).val = a.val) (h1 : (f 1).val = b.val) : f = ix2 a b :=
  funext fun d => Fin.ext (by match d with | ⟨0, _⟩ => exact h0 | ⟨1, _⟩ => exact h1)

/-- An index of a one-axis array is its coordinate. -/
theorem single_eq {n : Nat} (f : (⟨1, ![n]⟩ : Shape).Idx) (a : Fin n) (h0 : (f 0).val = a.val) : f = ix1 a :=
  funext fun d => Fin.ext (by match d with | ⟨0, _⟩ => exact h0)

theorem sage_apply {N K C : Nat} (a x : (⟨2, ![N, K]⟩ : Shape).Idx → EReal) (wl : (⟨2, ![K, C]⟩ : Shape).Idx → EReal)
    (b : (⟨2, ![1, C]⟩ : Shape).Idx → EReal) (wr : (⟨2, ![K, C]⟩ : Shape).Idx → EReal) (r : Fin N) (c : Fin C) :
    sage a x wl b wr (ix2 r c)
      = max ((∑ k : Fin K, a (ix2 r k) * wl (ix2 k c)) + b (ix2 0 c) + ∑ k : Fin K, x (ix2 r k) * wr (ix2 k c))
          (Ideal.ofBits .f32 0x00000000#32) := rfl

theorem affine_apply {N K C : Nat} (h : (⟨2, ![N, K]⟩ : Shape).Idx → EReal) (w : (⟨2, ![K, C]⟩ : Shape).Idx → EReal)
    (b : (⟨2, ![1, C]⟩ : Shape).Idx → EReal) (r : Fin N) (c : Fin C) :
    affine h w b (ix2 r c) = (∑ k : Fin K, h (ix2 r k) * w (ix2 k c)) + b (ix2 0 c) := rfl

/-- Row `r` of a layer over one family of arrays is row `r'` of the layer over another whenever the row-indexed operands
    agree on those two rows and the weights and the bias agree at the column. -/
theorem sage_rows {N N' K C : Nat} {a x : (⟨2, ![N, K]⟩ : Shape).Idx → EReal} {a' x' : (⟨2, ![N', K]⟩ : Shape).Idx → EReal}
    {wl wr wl' wr' : (⟨2, ![K, C]⟩ : Shape).Idx → EReal} {b b' : (⟨2, ![1, C]⟩ : Shape).Idx → EReal}
    (r : Fin N) (r' : Fin N') (c : Fin C)
    (ha : ∀ k, a (ix2 r k) = a' (ix2 r' k)) (hx : ∀ k, x (ix2 r k) = x' (ix2 r' k))
    (hwl : ∀ k, wl (ix2 k c) = wl' (ix2 k c)) (hwr : ∀ k, wr (ix2 k c) = wr' (ix2 k c)) (hb : b (ix2 0 c) = b' (ix2 0 c)) :
    sage a x wl b wr (ix2 r c) = sage a' x' wl' b' wr' (ix2 r' c) := by
  rw [sage_apply, sage_apply, hb,
    Finset.sum_congr rfl (fun k _ => by rw [ha k, hwl k] : ∀ k ∈ Finset.univ, a (ix2 r k) * wl (ix2 k c) = a' (ix2 r' k) * wl' (ix2 k c)),
    Finset.sum_congr rfl (fun k _ => by rw [hx k, hwr k] : ∀ k ∈ Finset.univ, x (ix2 r k) * wr (ix2 k c) = x' (ix2 r' k) * wr' (ix2 k c))]

/-- The same for the classifier. -/
theorem affine_rows {N N' K C : Nat} {h : (⟨2, ![N, K]⟩ : Shape).Idx → EReal} {h' : (⟨2, ![N', K]⟩ : Shape).Idx → EReal}
    {w w' : (⟨2, ![K, C]⟩ : Shape).Idx → EReal} {b b' : (⟨2, ![1, C]⟩ : Shape).Idx → EReal}
    (r : Fin N) (r' : Fin N') (c : Fin C)
    (hh : ∀ k, h (ix2 r k) = h' (ix2 r' k)) (hw : ∀ k, w (ix2 k c) = w' (ix2 k c)) (hb : b (ix2 0 c) = b' (ix2 0 c)) :
    affine h w b (ix2 r c) = affine h' w' b' (ix2 r' c) := by
  rw [affine_apply, affine_apply, hb,
    Finset.sum_congr rfl (fun k _ => by rw [hh k, hw k] : ∀ k ∈ Finset.univ, h (ix2 r k) * w (ix2 k c) = h' (ix2 r' k) * w' (ix2 k c))]

end Cert.Sage

end
-- ==== Proof.Bodies.lean ====
/-
  The two kernel bodies, read at the ideal values, are the dense stages of `Layers`.

  Each body loads whole blocks, rounds them to bf16 (the identity on the extended reals), multiplies on the matrix unit into a
  zero accumulator (a plain sum of products over the contracted axis), adds a bias row broadcast over the rows, and
  rectifies against zero.  The first body is one layer, `sage`; the second is a layer followed by the classifier,
  `affine (sage …)`.  The operations are first read in a form generic in the extents (`sage_ops`, `affine_ops`) and then
  matched with the value each kernel stores.
-/
import proofs.«105164_j81226421502183_1_alg».proof.Proof.Gen.KernelIdeal.Skeleton
import proofs.«105164_j81226421502183_1_alg».proof.Proof.LibPlainDot
import proofs.«105164_j81226421502183_1_alg».proof.Proof.Layers
import Idealize.ShloMosaic.Lib.Pipeline.Value
import Idealize.ShloMosaic.Lib.ValueLayout
import Idealize.ShloMosaic.PureOps.Ideal.Laws

noncomputable section

namespace Cert.Sage

open Idealize.ShloMosaic Idealize.ShloMosaic.ValueIdx Cert.LibPlainDot

/-- A matrix-unit product of bf16-typed operands into the zero accumulator, at entry `(p, c)`. -/
theorem mm {A K B : Nat} {D : DotDims ⟨2, ![A, K]⟩ ⟨2, ![K, B]⟩ ⟨2, ![A, B]⟩} (hD : Plain D) (prec : Option ContractPrecision)
    (l : FVec Ideal ⟨2, ![A, K]⟩ .bf16) (r : FVec Ideal ⟨2, ![K, B]⟩ .bf16) (p : Fin A) (c : Fin B) :
    matmul D prec l r (constant (F := Ideal) ⟨2, ![A, B]⟩ .f32 0x00000000#32) (ix2 p c) = ∑ k : Fin K, l (ix2 p k) * r (ix2 k c) :=
  (Ideal.matmul_constant_zero_apply D prec l r (ix2 p c)).trans (hD.sum_eq l r p c)

/-- Two products, a bias row and the rectifier: one layer. -/
theorem sage_ops {N K C : Nat} {D : DotDims ⟨2, ![N, K]⟩ ⟨2, ![K, C]⟩ ⟨2, ![N, C]⟩} (hD : Plain D)
    (a x : FVec Ideal ⟨2, ![N, K]⟩ .f32) (wl wr : FVec Ideal ⟨2, ![K, C]⟩ .f32) (b : FVec Ideal ⟨2, ![1, C]⟩ .f32)
    (hlt : FTy.bf16.bits < FTy.f32.bits) (hbc : (⟨2, ![1, C]⟩ : Shape).Broadcasts ⟨2, ![N, C]⟩) :
    maximumf (addf (addf (matmul D none (truncf .bf16 a hlt) (truncf .bf16 wl hlt) (constant (F := Ideal) ⟨2, ![N, C]⟩ .f32 0x00000000#32))
          (broadcastTo ⟨2, ![N, C]⟩ b hbc))
        (matmul D none (truncf .bf16 x hlt) (truncf .bf16 wr hlt) (constant (F := Ideal) ⟨2, ![N, C]⟩ .f32 0x00000000#32)))
      (broadcast ⟨2, ![N, C]⟩ (Scalar.ofBits (F := Ideal) .f32 0x00000000#32)) = sage a x wl b wr := by
  funext j
  obtain ⟨p, q, rfl⟩ : ∃ (p : Fin N) (q : Fin C), j = ix2 p q := ⟨j 0, j 1, eq_ix2 j⟩
  rw [sage_apply, maximumf_apply, addf_apply, addf_apply, broadcast_apply, mm hD, mm hD, broadcastTo_1b_ab_apply]
  rfl

/-- A product and a bias row: the classifier. -/
theorem affine_ops {N K C : Nat} {D : DotDims ⟨2, ![N, K]⟩ ⟨2, ![K, C]⟩ ⟨2, ![N, C]⟩} (hD : Plain D)
    (h : FVec Ideal ⟨2, ![N, K]⟩ .f32) (w : FVec Ideal ⟨2, ![K, C]⟩ .f32) (b : FVec Ideal ⟨2, ![1, C]⟩ .f32)
    (hlt : FTy.bf16.bits < FTy.f32.bits) (hbc : (⟨2, ![1, C]⟩ : Shape).Broadcasts ⟨2, ![N, C]⟩) :
    addf (matmul D none (truncf .bf16 h hlt) (truncf .bf16 w hlt) (constant (F := Ideal) ⟨2, ![N, C]⟩ .f32 0x00000000#32))
      (broadcastTo ⟨2, ![N, C]⟩ b hbc) = affine h w b := by
  funext j
  obtain ⟨p, q, rfl⟩ : ∃ (p : Fin N) (q : Fin C), j = ix2 p q := ⟨j 0, j 1, eq_ix2 j⟩
  rw [affine_apply, addf_apply, mm hD, broadcastTo_1b_ab_apply]
  rfl

end Cert.Sage

namespace Cert.KernelIdeal.Bodies

open Cert.KernelIdeal Cert.KernelIdeal.Gen Idealize.ShloMosaic Idealize.ShloMosaic.ValueIdx Cert.Sage Cert.LibPlainDot

theorem plain165 : Plain dot_S5000x165_S165x64_S5000x64_1_0_0_1_n_n := ⟨rfl, rfl, rfl, rfl, rfl, rfl⟩
theorem plain64 : Plain dot_S5000x64_S64x64_S5000x64_1_0_0_1_n_n := ⟨rfl, rfl, rfl, rfl, rfl, rfl⟩
theorem plain2 : Plain dot_S5000x64_S64x2_S5000x2_1_0_0_1_n_n := ⟨rfl, rfl, rfl, rfl, rfl, rfl⟩

/-- The first kernel's stored block is one layer of its loaded blocks. -/
theorem body0 (a x : Vec Ideal S5000x165 .f32) (wl wr : Vec Ideal S165x64 .f32) (b : Vec Ideal S1x64 .f32) :
    k0_pay1 (F := Ideal) a x wl wr b = sage a x wl b wr := by
  unfold k0_pay1
  dsimp only
  simp only [shapeCast_self]
  exact sage_ops plain165 a x wl wr b _ _

/-- The second kernel's stored block is the classifier of a layer of its loaded blocks. -/
theorem body1 (a h : Vec Ideal S5000x64 .f32) (wl wr : Vec Ideal S64x64 .f32) (b : Vec Ideal S1x64 .f32)
    (wc : Vec Ideal S64x2 .f32) (bc : Vec Ideal S1x2 .f32) :
    k1_pay1 (F := Ideal) a h wl wr b wc bc = affine (sage a h wl b wr) wc bc := by
  unfold k1_pay1
  dsimp only
  simp only [shapeCast_self]
  rw [sage_ops plain64 a h wl wr b]
  exact affine_ops plain2 (sage a h wl b wr) wc bc _ _

end Cert.KernelIdeal.Bodies

end
-- ==== Proof.Region0.lean ====
/-
  What the first kernel region leaves in its result array, whatever the arrays hold when the region is entered.

  The grid has 20 points.  At point `t` the two row-indexed operands (the aggregated features and the node features)
  are read through rows `5000·t … 5000·t + 4999`, the two weights and the bias row are read whole, and the stored block
  is written back to rows `5000·t … 5000·t + 4999` of the [100000, 64] result.  A layer's row depends only on the same
  row of its row-indexed operands, so the block point `t` writes is the same rows of the layer of the WHOLE arrays;
  the 20 blocks tile the result (row `r` lies in the block of point `r / 5000`), hence the result array ends at the
  layer of the whole arrays.
-/
import proofs.«105164_j81226421502183_1_alg».proof.Proof.Gen.KernelIdeal.Frame
import proofs.«105164_j81226421502183_1_alg».proof.Proof.Bodies

noncomputable section

namespace Cert.KernelIdeal.Region0

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block row `t`, every other block index is 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregated features' block at point `t`: rows `5000·t + ·` of the array. -/
theorem agg_block (c : Dev nD) (t : Fin cfg0.N) (y : S5000x165.Idx) (i : S100000x165.Idx)
    (h0 : (i 0).val = t.val * 5000 + (y 0).val) (h1 : (i 1).val = (y 1).val) :
    (iblk0 V c 0 t : Vec Ideal S5000x165 .f32) y = (V c main_v21 : S100000x165.Idx → EReal) i := by
  obtain ⟨e0, e1, -⟩ := idx_facts t
  show V c main_v21 (((cfg0.win 0).blk t).view.emb y) = V c main_v21 i
  refine congrArg (V c main_v21) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 165 + 1 * (y 1).val = (i 1).val; rw [e1, h1]; omega

/-- The node features' block at point `t`: the same rows. -/
theorem root_block (c : Dev nD) (t : Fin cfg0.N) (y : S5000x165.Idx) (i : S100000x165.Idx)
    (h0 : (i 0).val = t.val * 5000 + (y 0).val) (h1 : (i 1).val = (y 1).val) :
    (iblk0 V c 1 t : Vec Ideal S5000x165 .f32) y = (V c main_arg0 : S100000x165.Idx → EReal) i := by
  obtain ⟨-, -, e0, e1, -⟩ := idx_facts t
  show V c main_arg0 (((cfg0.win 1).blk t).view.emb y) = V c main_arg0 i
  refine congrArg (V c main_arg0) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 165 + 1 * (y 1).val = (i 1).val; rw [e1, h1]; omega

/-- The left weight is read whole at every point. -/
theorem wl_block (c : Dev nD) (t : Fin cfg0.N) (y : S165x64.Idx) :
    (iblk0 V c 2 t : Vec Ideal S165x64 .f32) y = (V c main_arg2 : S165x64.Idx → EReal) y := by
  obtain ⟨-, -, -, -, e0, e1, -⟩ := idx_facts t
  show V c main_arg2 (((cfg0.win 2).blk t).view.emb y) = V c main_arg2 y
  refine congrArg (V c main_arg2) (funext fun a => Fin.ext ?_)
  match a with
  | ⟨0, _⟩ => show win0_2.index t (0 : Fin 2) * 165 + 1 * (y 0).val = (y 0).val; rw [e0]; omega
  | ⟨1, _⟩ => show win0_2.index t (1 : Fin 2) * 64 + 1 * (y 1).val = (y 1).val; rw [e1]; omega

/-- The bias row is read whole at every point. -/
theorem bias_block (c : Dev nD) (t : Fin cfg0.N) (y : S1x64.Idx) :
    (iblk0 V c 3 t : Vec Ideal S1x64 .f32) y = (V c main_v22 : S1x64.Idx → EReal) y := by
  obtain ⟨-, -, -, -, -, -, e0, e1, -⟩ := idx_facts t
  show V c main_v22 (((cfg0.win 3).blk t).view.emb y) = V c main_v22 y
  refine congrArg (V c main_v22) (funext fun a => Fin.ext ?_)
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The right weight is read whole at every point. -/
theorem wr_block (c : Dev nD) (t : Fin cfg0.N) (y : S165x64.Idx) :
    (iblk0 V c 4 t : Vec Ideal S165x64 .f32) y = (V c main_arg4 : S165x64.Idx → EReal) y := by
  obtain ⟨-, -, -, -, -, -, -, -, e0, e1, -⟩ := idx_facts t
  show V c main_arg4 (((cfg0.win 4).blk t).view.emb y) = V c main_arg4 y
  refine congrArg (V c main_arg4) (funext fun a => Fin.ext ?_)
  match a with
  | ⟨0, _⟩ => show win0_4.index t (0 : Fin 2) * 165 + 1 * (y 0).val = (y 0).val; rw [e0]; omega
  | ⟨1, _⟩ => show win0_4.index t (1 : Fin 2) * 64 + 1 * (y 1).val = (y 1).val; rw [e1]; omega

/-- The layer of the arrays as the region finds them. -/
abbrev layer (c : Dev nD) : S100000x64.Idx → EReal :=
  sage (V c main_v21 : S100000x165.Idx → EReal) (V c main_arg0 : S100000x165.Idx → EReal) (V c main_arg2 : S165x64.Idx → EReal)
    (V c main_v22 : S1x64.Idx → EReal) (V c main_arg4 : S165x64.Idx → EReal)

/-- The block stored at point `t`, entry by entry, is the layer of the whole arrays at the entry's place in the result. -/
theorem stored_at (c : Dev nD) (t : Fin cfg0.N) (j : S5000x64.Idx) :
    k0_pay1 (F := Ideal) (iblk0 V c 0 t) (iblk0 V c 1 t) (iblk0 V c 2 t) (iblk0 V c 4 t) (iblk0 V c 3 t) j
      = layer V c (((cfg0.win 5).blk t).view.emb j) := by
  refine (congrFun (Bodies.body0 (iblk0 V c 0 t) (iblk0 V c 1 t) (iblk0 V c 2 t) (iblk0 V c 4 t) (iblk0 V c 3 t)) j).trans ?_
  obtain ⟨p, q, rfl⟩ : ∃ (p : Fin 5000) (q : Fin 64), j = ix2 p q := ⟨j 0, j 1, eq_ix2 j⟩
  have hN : cfg0.N = 20 := N_0
  have ht : t.val < 20 := hN ▸ t.isLt
  obtain ⟨-, -, -, -, -, -, -, -, -, -, e0, e1⟩ := idx_facts t
  have hi : ((cfg0.win 5).blk t).view.emb (ix2 p q) = ix2 (⟨t.val * 5000 + p.val, by omega⟩ : Fin 100000) q :=
    funext fun a => Fin.ext (by
      match a with
      | ⟨0, _⟩ => show win0_5.index t (0 : Fin 2) * 5000 + 1 * p.val = t.val * 5000 + p.val; rw [e0]; omega
      | ⟨1, _⟩ => show win0_5.index t (1 : Fin 2) * 64 + 1 * q.val = q.val; rw [e1]; omega)
  rw [hi]
  exact sage_rows p _ q (fun k => agg_block V c t (ix2 p k) (ix2 _ k) rfl rfl) (fun k => root_block V c t (ix2 p k) (ix2 _ k) rfl rfl)
    (fun k => wl_block V c t (ix2 k q)) (fun k => wr_block V c t (ix2 k q)) (bias_block V c t (ix2 0 q))

/-- What point `t` writes back is block `t` of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero hz]
  simp only [View.ld_unit_zero (S := S5000x165) hz, View.ld_unit_zero (S := S165x64) hz, View.ld_unit_zero (S := S1x64) hz]
  funext j
  exact stored_at V c t j

/-- An index of the result is in point `t`'s block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v23).slice (win0_5.rect t)).set ↔ _
  rw [View.set_slice_whole, Rect.mem_set_unit]
  exact Iff.rfl

/-- The result array after the region: the layer of the arrays as the region found them. -/
theorem final (c : Dev nD) : (dat0 V c).arrAt 5 cfg0.N = layer V c :=
  (dat0 V c).arrAt_eq_of_cover 5 (layer V c) (fun t _ => flushed_eq V c t) fun i => by
    have hN : cfg0.N = 20 := N_0
    have hi0 : ((i : S100000x64.Idx) 0).val < 100000 := ((i : S100000x64.Idx) 0).isLt
    have hi1 : ((i : S100000x64.Idx) 1).val < 64 := ((i : S100000x64.Idx) 1).isLt
    have hlt : ((i : S100000x64.Idx) 0).val / 5000 < cfg0.N := by rw [hN]; omega
    refine ⟨⟨((i : S100000x64.Idx) 0).val / 5000, hlt⟩, flush0_5 _, ?_⟩
    rw [mem_blk]
    obtain ⟨-, -, -, -, -, -, -, -, -, -, e0, e1⟩ := idx_facts ⟨((i : S100000x64.Idx) 0).val / 5000, hlt⟩
    intro a
    match a with
    | ⟨0, _⟩ =>
      show win0_5.index ⟨((i : S100000x64.Idx) 0).val / 5000, hlt⟩ (0 : Fin 2) * 5000 ≤ ((i : S100000x64.Idx) 0).val
        ∧ ((i : S100000x64.Idx) 0).val < win0_5.index ⟨((i : S100000x64.Idx) 0).val / 5000, hlt⟩ (0 : Fin 2) * 5000 + 5000
      rw [e0]; show ((i : S100000x64.Idx) 0).val / 5000 * 5000 ≤ _ ∧ _ < ((i : S100000x64.Idx) 0).val / 5000 * 5000 + 5000; omega
    | ⟨1, _⟩ =>
      show win0_5.index ⟨((i : S100000x64.Idx) 0).val / 5000, hlt⟩ (1 : Fin 2) * 64 ≤ ((i : S100000x64.Idx) 1).val
        ∧ ((i : S100000x64.Idx) 1).val < win0_5.index ⟨((i : S100000x64.Idx) 0).val / 5000, hlt⟩ (1 : Fin 2) * 64 + 64
      rw [e1]; omega

end Cert.KernelIdeal.Region0

end
-- ==== Proof.Region1.lean ====
/-
  What the second kernel region leaves in its result array, whatever the arrays hold when the region is entered.

  The grid has 20 points.  At point `t` the two row-indexed operands (the aggregated hidden features and the hidden
  features) are read through rows `5000·t … 5000·t + 4999`, the three weights and the two bias rows are read whole, and
  the stored block is written back to rows `5000·t … 5000·t + 4999` of the [100000, 2] result.  The classifier of a layer,
  at a row, depends only on the same row of the row-indexed operands, so the block point `t` writes is the same rows
  of that function of the WHOLE arrays; the 20 blocks tile the result, hence the result array ends at it.
-/
import proofs.«105164_j81226421502183_1_alg».proof.Proof.Gen.KernelIdeal.Frame
import proofs.«105164_j81226421502183_1_alg».proof.Proof.Bodies

noncomputable section

namespace Cert.KernelIdeal.Region1

open Cert.KernelIdeal Cert.KernelIdeal.Gen Idealize.ShloMosaic Idealize.ShloMosaic.TcCoe Idealize.ShloMosaic.ValueIdx Idealize.SL.Sem Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-indexed windows sit at block row `t`, every other block index is 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The aggregated hidden features' block at point `t`: rows `5000·t + ·` of the array. -/
theorem agg_block (c : Dev nD) (t : Fin cfg1.N) (y : S5000x64.Idx) (i : S100000x64.Idx)
    (h0 : (i 0).val = t.val * 5000 + (y 0).val) (h1 : (i 1).val = (y 1).val) :
    (iblk1 V c 0 t : Vec Ideal S5000x64 .f32) y = (V c main_v41 : S100000x64.Idx → EReal) i := by
  obtain ⟨e0, e1, -⟩ := idx_facts t
  show V c main_v41 (((cfg1.win 0).blk t).view.emb y) = V c main_v41 i
  refine congrArg (V c main_v41) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 64 + 1 * (y 1).val = (i 1).val; rw [e1, h1]; omega

/-- The hidden features' block at point `t`: the same rows. -/
theorem root_block (c : Dev nD) (t : Fin cfg1.N) (y : S5000x64.Idx) (i : S100000x64.Idx)
    (h0 : (i 0).val = t.val * 5000 + (y 0).val) (h1 : (i 1).val = (y 1).val) :
    (iblk1 V c 1 t : Vec Ideal S5000x64 .f32) y = (V c main_v23 : S100000x64.Idx → EReal) i := by
  obtain ⟨-, -, e0, e1, -⟩ := idx_facts t
  show V c main_v23 (((cfg1.win 1).blk t).view.emb y) = V c main_v23 i
  refine congrArg (V c main_v23) (funext fun a => Fin.ext ?_)
  match a with
  | ⟨0, _⟩ => show win1_1.index t (0 : Fin 2) * 5000 + 1 * (y 0).val = (i 0).val; rw [e0, h0]; omega
  | ⟨1, _⟩ => show win1_1.index t (1 : Fin 2) * 64 + 1 * (y 1).val = (i 1).val; rw [e1, h1]; omega

/-- The left weight is read whole at every point. -/
theorem wl_block (c : Dev nD) (t : Fin cfg1.N) (y : S64x64.Idx) :
    (iblk1 V c 2 t : Vec Ideal S64x64 .f32) y = (V c main_arg5 : S64x64.Idx → EReal) y := by
  obtain ⟨-, -, -, -, e0, e1, -⟩ := idx_facts t
  show V c main_arg5 (((cfg1.win 2).blk t).view.emb y) = V c main_arg5 y
  refine congrArg (V c main_arg5) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- The layer's bias row is read whole at every point. -/
theorem bias_block (c : Dev nD) (t : Fin cfg1.N) (y : S1x64.Idx) :
    (iblk1 V c 3 t : Vec Ideal S1x64 .f32) y = (V c main_v42 : S1x64.Idx → EReal) y := by
  obtain ⟨-, -, -, -, -, -, e0, e1, -⟩ := idx_facts t
  show V c main_v42 (((cfg1.win 3).blk t).view.emb y) = V c main_v42 y
  refine congrArg (V c main_v42) (funext fun a => Fin.ext ?_)
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- The right weight is read whole at every point. -/
theorem wr_block (c : Dev nD) (t : Fin cfg1.N) (y : S64x64.Idx) :
    (iblk1 V c 4 t : Vec Ideal S64x64 .f32) y = (V c main_arg7 : S64x64.Idx → EReal) y := by
  obtain ⟨-, -, -, -, -, -, -, -, e0, e1, -⟩ := idx_facts t
  show V c main_arg7 (((cfg1.win 4).blk t).view.emb y) = V c main_arg7 y
  refine congrArg (V c main_arg7) (funext fun a => Fin.ext ?_)
  match a with
  | ⟨0, _⟩ => show win1_4.index t (0 : Fin 2) * 64 + 1 * (y 0).val = (y 0).val; rw [e0]; omega
  | ⟨1, _⟩ => show win1_4.index t (1 : Fin 2) * 64 + 1 * (y 1).val = (y 1).val; rw [e1]; omega

/-- The classifier's weight is read whole at every point. -/
theorem wc_block (c : Dev nD) (t : Fin cfg1.N) (y : S64x2.Idx) :
    (iblk1 V c 5 t : Vec Ideal S64x2 .f32) y = (V c main_arg8 : S64x2.Idx → EReal) y := by
  obtain ⟨-, -, -, -, -, -, -, -, -, -, e0, e1, -⟩ := idx_facts t
  show V c main_arg8 (((cfg1.win 5).blk t).view.emb y) = V c main_arg8 y
  refine congrArg (V c main_arg8) (funext fun a => Fin.ext ?_)
  match a with
  | ⟨0, _⟩ => show win1_5.index t (0 : Fin 2) * 64 + 1 * (y 0).val = (y 0).val; rw [e0]; omega
  | ⟨1, _⟩ => show win1_5.index t (1 : Fin 2) * 2 + 1 * (y 1).val = (y 1).val; rw [e1]; omega

/-- The classifier's bias row is read whole at every point. -/
theorem bc_block (c : Dev nD) (t : Fin cfg1.N) (y : S1x2.Idx) :
    (iblk1 V c 6 t : Vec Ideal S1x2 .f32) y = (V c main_v43 : S1x2.Idx → EReal) y := by
  obtain ⟨-, -, -, -, -, -, -, -, -, -, -, -, e0, e1, -⟩ := idx_facts t
  show V c main_v43 (((cfg1.win 6).blk t).view.emb y) = V c main_v43 y
  refine congrArg (V c main_v43) (funext fun a => Fin.ext ?_)
  match a with
  | ⟨0, _⟩ => show win1_6.index t (0 : Fin 2) * 1 + 1 * (y 0).val = (y 0).val; rw [e0]; omega
  | ⟨1, _⟩ => show win1_6.index t (1 : Fin 2) * 2 + 1 * (y 1).val = (y 1).val; rw [e1]; omega

/-- The classifier of the layer of the arrays as the region finds them. -/
abbrev scores (c : Dev nD) : S100000x2.Idx → EReal :=
  affine (sage (V c main_v41 : S100000x64.Idx → EReal) (V c main_v23 : S100000x64.Idx → EReal) (V c main_arg5 : S64x64.Idx → EReal)
      (V c main_v42 : S1x64.Idx → EReal) (V c main_arg7 : S64x64.Idx → EReal))
    (V c main_arg8 : S64x2.Idx → EReal) (V c main_v43 : S1x2.Idx → EReal)

/-- The block stored at point `t`, entry by entry, is that function of the whole arrays at the entry's place in the result. -/
theorem stored_at (c : Dev nD) (t : Fin cfg1.N) (j : S5000x2.Idx) :
    k1_pay1 (F := Ideal) (iblk1 V c 0 t) (iblk1 V c 1 t) (iblk1 V c 2 t) (iblk1 V c 4 t) (iblk1 V c 3 t) (iblk1 V c 5 t) (iblk1 V c 6 t) j
      = scores V c (((cfg1.win 7).blk t).view.emb j) := by
  refine (congrFun (Bodies.body1 (iblk1 V c 0 t) (iblk1 V c 1 t) (iblk1 V c 2 t) (iblk1 V c 4 t) (iblk1 V c 3 t) (iblk1 V c 5 t) (iblk1 V c 6 t)) j).trans ?_
  obtain ⟨p, q, rfl⟩ : ∃ (p : Fin 5000) (q : Fin 2), j = ix2 p q := ⟨j 0, j 1, eq_ix2 j⟩
  have hN : cfg1.N = 20 := N_1
  have ht : t.val < 20 := hN ▸ t.isLt
  obtain ⟨-, -, -, -, -, -, -, -, -, -, -, -, -, -, e0, e1⟩ := idx_facts t
  have hi : ((cfg1.win 7).blk t).view.emb (ix2 p q) = ix2 (⟨t.val * 5000 + p.val, by omega⟩ : Fin 100000) q :=
    funext fun a => Fin.ext (by
      match a with
      | ⟨0, _⟩ => show win1_7.index t (0 : Fin 2) * 5000 + 1 * p.val = t.val * 5000 + p.val; rw [e0]; omega
      | ⟨1, _⟩ => show win1_7.index t (1 : Fin 2) * 2 + 1 * q.val = q.val; rw [e1]; omega)
  rw [hi]
  exact affine_rows p _ q
    (fun k => sage_rows p _ k (fun l => agg_block V c t (ix2 p l) (ix2 _ l) rfl rfl) (fun l => root_block V c t (ix2 p l) (ix2 _ l) rfl rfl)
      (fun l => wl_block V c t (ix2 l k)) (fun l => wr_block V c t (ix2 l k)) (bias_block V c t (ix2 0 k)))
    (fun k => wc_block V c t (ix2 k q)) (bc_block V c t (ix2 0 q))

/-- What point `t` writes back is block `t` of that function of the whole arrays. -/
theorem flushed_eq (c : Dev nD) (t : Fin cfg1.N) :
    (dat1 V c).flushed 7 t = ((cfg1.win 7).blk t).view.read (Elt Ideal) (scores V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz,
    View.ld_unit_zero (S := S64x2) hz, View.ld_unit_zero (S := S1x2) hz]
  funext j
  exact stored_at V c t j

/-- An index of the result is in point `t`'s block iff each coordinate is in the block's range on its axis. -/
theorem mem_blk (t : Fin cfg1.N) (i : S100000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v44).slice (win1_7.rect t)).set ↔ _
  rw [View.set_slice_whole, Rect.mem_set_unit]
  exact Iff.rfl

/-- The result array after the region: the classifier of the layer of the arrays as the region found them. -/
theorem final (c : Dev nD) : (dat1 V c).arrAt 7 cfg1.N = scores V c :=
  (dat1 V c).arrAt_eq_of_cover 7 (scores V c) (fun t _ => flushed_eq V c t) fun i => by
    have hN : cfg1.N = 20 := N_1
    have hi0 : ((i : S100000x2.Idx) 0).val < 100000 := ((i : S100000x2.Idx) 0).isLt
    have hi1 : ((i : S100000x2.Idx) 1).val < 2 := ((i : S100000x2.Idx) 1).isLt
    have hlt : ((i : S100000x2.Idx) 0).val / 5000 < cfg1.N := by rw [hN]; omega
    refine ⟨⟨((i : S100000x2.Idx) 0).val / 5000, hlt⟩, flush1_7 _, ?_⟩
    rw [mem_blk]
    obtain ⟨-, -, -, -, -, -, -, -, -, -, -, -, -, -, e0, e1⟩ := idx_facts ⟨((i : S100000x2.Idx) 0).val / 5000, hlt⟩
    intro a
    match a with
    | ⟨0, _⟩ =>
      show win1_7.index ⟨((i : S100000x2.Idx) 0).val / 5000, hlt⟩ (0 : Fin 2) * 5000 ≤ ((i : S100000x2.Idx) 0).val
        ∧ ((i : S100000x2.Idx) 0).val < win1_7.index ⟨((i : S100000x2.Idx) 0).val / 5000, hlt⟩ (0 : Fin 2) * 5000 + 5000
      rw [e0]; show ((i : S100000x2.Idx) 0).val / 5000 * 5000 ≤ _ ∧ _ < ((i : S100000x2.Idx) 0).val / 5000 * 5000 + 5000; omega
    | ⟨1, _⟩ =>
      show win1_7.index ⟨((i : S100000x2.Idx) 0).val / 5000, hlt⟩ (1 : Fin 2) * 2 ≤ ((i : S100000x2.Idx) 1).val
        ∧ ((i : S100000x2.Idx) 1).val < win1_7.index ⟨((i : S100000x2.Idx) 0).val / 5000, hlt⟩ (1 : Fin 2) * 2 + 2
      rw [e1]; omega

end Cert.KernelIdeal.Region1

end
-- ==== Proof.RefValue.lean ====
/-
  The reference program's result, stage by stage, is the specification.

  The reference computes, with host operations only: the mean of each node's in-neighbours' features (a gather along the
  edge sources, a scatter-add at the edge destinations, a division by the in-degree clipped below at 1); one layer
  (a product with the left weight, the bias, a product of the node's own features with the right weight, the
  rectifier); the same aggregation of the hidden features; a second layer; the linear classifier.  Read at an entry, each
  host product is a sum over the contracted axis and each bias broadcast reads the bias vector at the column, so the
  two layers and the classifier are `sage` and `affine` of `Layers`; the two aggregations are kept as the opaque host
  terms they are (`val_main_v21`, `agg64`): the kernel program applies the same host operations, and nothing about their
  values is needed.
-/
import proofs.«105164_j81226421502183_1_alg».proof.Proof.Gen.ReferenceIdeal.Read
import proofs.«105164_j81226421502183_1_alg».proof.Proof.Layers

noncomputable section

namespace Cert.ReferenceIdeal.RefValue

open Cert.ReferenceIdeal Cert.ReferenceIdeal.Read Idealize.ShloMosaic Idealize.ShloMosaic.ValueIdx Cert.Sage

/-- The mean over in-neighbours of 64-wide hidden features `h`, along the edges `x1`: the host terms of the second
    aggregation with the hidden features a variable. -/
def agg64 (h : FVec Ideal S100000x64 .f32) (x1 : (⟨S2x1600000, .i32⟩ : BufTy).Contents (Elt Ideal)) : FVec Ideal S100000x64 .f32 :=
  Host.divf (F := Ideal) (φ := .f32)
    (Host.scatterAdd (F := Ideal) scatter_S100000x64_S1600000x1_S1600000x64_1_0_0_1 (val_main_v36 (F := Ideal)) (val_main_v37 (F := Ideal) x1)
      (Host.gather gather_S100000x64_S1600000x1_S1600000x64_1_0_n_n_0_1_164 h (val_main_v34 (F := Ideal) x1)))
    (val_main_v45 (F := Ideal) x1)

section
variable (x0 : (⟨S100000x165, .f32⟩ : BufTy).Contents (Elt Ideal)) (x1 : (⟨S2x1600000, .i32⟩ : BufTy).Contents (Elt Ideal))
  (x2 : (⟨S165x64, .f32⟩ : BufTy).Contents (Elt Ideal)) (x3 : (⟨S64, .f32⟩ : BufTy).Contents (Elt Ideal))
  (x4 : (⟨S165x64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64x2, .f32⟩ : BufTy).Contents (Elt Ideal)) (x9 : (⟨S2, .f32⟩ : BufTy).Contents (Elt Ideal))

/-- The second aggregation is `agg64` of the first layer's output. -/
theorem agg64_eq : val_main_v46 (F := Ideal) x0 x1 x2 x3 x4 = agg64 (val_main_v28 (F := Ideal) x0 x1 x2 x3 x4) x1 := rfl

/-- The first layer's output is `sage` of the first aggregation, the features, the two weights and the bias row. -/
theorem hidden_eq : val_main_v28 (F := Ideal) x0 x1 x2 x3 x4 = sage (val_main_v21 (F := Ideal) x0 x1) x0 x2 (row x3) x4 := by
  funext i
  obtain ⟨r, q, rfl⟩ : ∃ (r : Fin 100000) (q : Fin 64), i = ix2 r q := ⟨i 0, i 1, eq_ix2 i⟩
  rw [sage_apply, val_main_v28_apply, val_main_v27_apply, val_main_v25_apply, val_main_v22_apply, val_main_v26_apply,
    val_main_v24_apply, val_main_v23_apply, val_main_call0_v0_apply, val_main_call0_cst_apply]
  have e1 : ∀ k : Fin 165, lidx_main_v22 (ix2 r q) k = ix2 r k := fun k => pair_eq _ _ _ rfl rfl
  have e2 : ∀ k : Fin 165, ridx_main_v22 (ix2 r q) k = ix2 k q := fun k => pair_eq _ _ _ rfl rfl
  have e3 : ∀ k : Fin 165, lidx_main_v26 (ix2 r q) k = ix2 r k := fun k => pair_eq _ _ _ rfl rfl
  have e4 : ∀ k : Fin 165, ridx_main_v26 (ix2 r q) k = ix2 k q := fun k => pair_eq _ _ _ rfl rfl
  have e5 : idx_main_v23 (idx_main_v24 (ix2 r q)) = ix1 q := single_eq _ _ rfl
  refine congrArg₂ max (congrArg₂ (· + ·) (congrArg₂ (· + ·) (Finset.sum_congr rfl fun k _ => ?_) ?_) (Finset.sum_congr rfl fun k _ => ?_)) rfl
  · rw [e1 k, e2 k]
  · exact congrArg x3 e5
  · rw [e3 k, e4 k]

/-- The second layer's output is `sage` of the second aggregation, the hidden features, the two weights and the bias row. -/
theorem hidden2_eq : val_main_v53 (F := Ideal) x0 x1 x2 x3 x4 x5 x6 x7
    = sage (val_main_v46 (F := Ideal) x0 x1 x2 x3 x4) (val_main_v28 (F := Ideal) x0 x1 x2 x3 x4) x5 (row x6) x7 := by
  funext i
  obtain ⟨r, q, rfl⟩ : ∃ (r : Fin 100000) (q : Fin 64), i = ix2 r q := ⟨i 0, i 1, eq_ix2 i⟩
  rw [sage_apply, val_main_v53_apply, val_main_v52_apply, val_main_v50_apply, val_main_v47_apply, val_main_v51_apply,
    val_main_v49_apply, val_main_v48_apply, val_main_call1_v0_apply, val_main_call1_cst_apply]
  have e1 : ∀ k : Fin 64, lidx_main_v47 (ix2 r q) k = ix2 r k := fun k => pair_eq _ _ _ rfl rfl
  have e2 : ∀ k : Fin 64, ridx_main_v47 (ix2 r q) k = ix2 k q := fun k => pair_eq _ _ _ rfl rfl
  have e3 : ∀ k : Fin 64, lidx_main_v51 (ix2 r q) k = ix2 r k := fun k => pair_eq _ _ _ rfl rfl
  have e4 : ∀ k : Fin 64, ridx_main_v51 (ix2 r q) k = ix2 k q := fun k => pair_eq _ _ _ rfl rfl
  have e5 : idx_main_v48 (idx_main_v49 (ix2 r q)) = ix1 q := single_eq _ _ rfl
  refine congrArg₂ max (congrArg₂ (· + ·) (congrArg₂ (· + ·) (Finset.sum_congr rfl fun k _ => ?_) ?_) (Finset.sum_congr rfl fun k _ => ?_)) rfl
  · rw [e1 k, e2 k]
  · exact congrArg x6 e5
  · rw [e3 k, e4 k]

/-- The result is the classifier of the second layer's output. -/
theorem scores_eq : val_main_v57 (F := Ideal) x0 x1 x2 x3 x4 x5 x6 x7 x8 x9
    = affine (val_main_v53 (F := Ideal) x0 x1 x2 x3 x4 x5 x6 x7) x8 (row x9) := by
  funext i
  obtain ⟨r, q, rfl⟩ : ∃ (r : Fin 100000) (q : Fin 2), i = ix2 r q := ⟨i 0, i 1, eq_ix2 i⟩
  rw [affine_apply, val_main_v57_apply, val_main_v54_apply, val_main_v56_apply, val_main_v55_apply]
  have e1 : ∀ k : Fin 64, lidx_main_v54 (ix2 r q) k = ix2 r k := fun k => pair_eq _ _ _ rfl rfl
  have e2 : ∀ k : Fin 64, ridx_main_v54 (ix2 r q) k = ix2 k q := fun k => pair_eq _ _ _ rfl rfl
  have e5 : idx_main_v55 (idx_main_v56 (ix2 r q)) = ix1 q := single_eq _ _ rfl
  refine congrArg₂ (· + ·) (Finset.sum_congr rfl fun k _ => ?_) ?_
  · rw [e1 k, e2 k]
  · exact congrArg x9 e5

/-- The specification: the two layers and the classifier over the two aggregations, as one function of the ten
    argument arrays. -/
def spec : (⟨S100000x2, .f32⟩ : BufTy).Contents (Elt Ideal) :=
  affine (sage (agg64 (sage (val_main_v21 (F := Ideal) x0 x1) x0 x2 (row x3) x4) x1)
      (sage (val_main_v21 (F := Ideal) x0 x1) x0 x2 (row x3) x4) x5 (row x6) x7) x8 (row x9)

/-- The reference's result is the specification. -/
theorem result_eq : val_main_v57 (F := Ideal) x0 x1 x2 x3 x4 x5 x6 x7 x8 x9 = spec x0 x1 x2 x3 x4 x5 x6 x7 x8 x9 := by
  rw [scores_eq, hidden2_eq, agg64_eq, hidden_eq]
  rfl

end

end Cert.ReferenceIdeal.RefValue

end
-- ==== Proof.KernelValue.lean ====
/-
  The kernel program's result array is the specification of the argument arrays.

  The program's fold, boundary by boundary:
  * the first stretch of host operations computes, from the launch memory, the mean over in-neighbours of the node
    features (the SAME host terms as the reference's first aggregation), splits the edge list into its source and
    destination rows, and lays the first bias out as a row; it writes no argument;
  * the first kernel region leaves in its result array one layer of what it found (`Region0.final`): the hidden
    features;
  * the second stretch computes the mean over in-neighbours of the hidden features (the same host terms as the
    reference's second aggregation, `agg64`, of the array the region left) and lays the other two biases out as rows;
  * the second kernel region leaves in its result array the classifier of the second layer of what it found
    (`Region1.final`).
  Composing the four gives `spec` of the ten argument arrays.  A bias vector cast to one row is `row` of it.
-/
import proofs.«105164_j81226421502183_1_alg».proof.Proof.Region0
import proofs.«105164_j81226421502183_1_alg».proof.Proof.Region1
import proofs.«105164_j81226421502183_1_alg».proof.Proof.RefValue
import Idealize.ShloMosaic.Lib.ValueLayout
import Idealize.ShloMosaic.Lib.StableHlo.Run

noncomputable section

namespace Cert.KernelIdeal.Chain

open Cert.KernelIdeal Cert.KernelIdeal.Gen Idealize.ShloMosaic Idealize.ShloMosaic.TcCoe Idealize.ShloMosaic.ValueIdx Idealize.SL.Sem
open Idealize.ShloMosaic.StableHlo Cert.Sage
open Cert.ReferenceIdeal.RefValue (agg64 spec)

/-- A vector cast to a one-row matrix is its row layout. -/
theorem cast_row {C : Nat} (b : (⟨1, ![C]⟩ : Shape).Idx → EReal) (h : (⟨1, ![C]⟩ : Shape).ShapeCasts ⟨2, ![1, C]⟩) :
    shapeCast ⟨2, ![1, C]⟩ b h = row b := by
  funext i
  obtain ⟨u, q, rfl⟩ : ∃ (u : Fin 1) (q : Fin C), i = ix2 u q := ⟨i 0, i 1, eq_ix2 i⟩
  exact shapeCast_a_1a_apply b h u q

variable (m : (ℓ : Loc nD τ sig) → Buf (Elt Ideal) ℓ) (ρ : Dev nD → PrngReg) (c : Dev nD)

/-- The argument arrays at launch. -/
abbrev a0 : S100000x165.Idx → EReal := m ((c.tc : Thread nD τ).loc main_arg0)
abbrev a1 : S2x1600000.Idx → BitVec 32 := m ((c.tc : Thread nD τ).loc main_arg1)
abbrev a2 : S165x64.Idx → EReal := m ((c.tc : Thread nD τ).loc main_arg2)
abbrev a3 : S64.Idx → EReal := m ((c.tc : Thread nD τ).loc main_arg3)
abbrev a4 : S165x64.Idx → EReal := m ((c.tc : Thread nD τ).loc main_arg4)
abbrev a5 : S64x64.Idx → EReal := m ((c.tc : Thread nD τ).loc main_arg5)
abbrev a6 : S64.Idx → EReal := m ((c.tc : Thread nD τ).loc main_arg6)
abbrev a7 : S64x64.Idx → EReal := m ((c.tc : Thread nD τ).loc main_arg7)
abbrev a8 : S64x2.Idx → EReal := m ((c.tc : Thread nD τ).loc main_arg8)
abbrev a9 : S2.Idx → EReal := m ((c.tc : Thread nD τ).loc main_arg9)

/-! ## What the first region finds -/

theorem in_v21 : (V1 m ρ c main_v21 : S100000x165.Idx → EReal) = Cert.ReferenceIdeal.Read.val_main_v21 (F := Ideal) (a0 m c) (a1 m c) := by
  show StableHlo.after hostOps0 (W0 m ρ c) (Proc.devRef .tc main_v21) = _
  after_results_simp <;> rfl

theorem in_arg0 : (V1 m ρ c main_arg0 : S100000x165.Idx → EReal) = a0 m c := by
  show StableHlo.after hostOps0 (W0 m ρ c) (Proc.devRef .tc main_arg0) = _
  after_results_simp <;> rfl

theorem in_arg2 : (V1 m ρ c main_arg2 : S165x64.Idx → EReal) = a2 m c := by
  show StableHlo.after hostOps0 (W0 m ρ c) (Proc.devRef .tc main_arg2) = _
  after_results_simp <;> rfl

theorem in_arg4 : (V1 m ρ c main_arg4 : S165x64.Idx → EReal) = a4 m c := by
  show StableHlo.after hostOps0 (W0 m ρ c) (Proc.devRef .tc main_arg4) = _
  after_results_simp <;> rfl

theorem in_v22 : (V1 m ρ c main_v22 : S1x64.Idx → EReal) = row (a3 m c) := by
  show StableHlo.after hostOps0 (W0 m ρ c) (Proc.devRef .tc main_v22) = _
  after_results_simp
  exact cast_row _ _

/-! ## What the first region leaves: the hidden features -/

/-- The hidden features: one layer of the aggregated node features, the node features, the first layer's weights and bias. -/
abbrev hid : S100000x64.Idx → EReal :=
  sage (Cert.ReferenceIdeal.Read.val_main_v21 (F := Ideal) (a0 m c) (a1 m c)) (a0 m c) (a2 m c) (row (a3 m c)) (a4 m c)

theorem hidden : (W2 m ρ c (Proc.devRef .tc main_v23) : S100000x64.Idx → EReal) = hid m c := by
  refine (W2_arr m ρ c 5).trans ((Region0.final (V1 m ρ) c).trans ?_)
  show sage (V1 m ρ c main_v21 : S100000x165.Idx → EReal) (V1 m ρ c main_arg0 : S100000x165.Idx → EReal)
    (V1 m ρ c main_arg2 : S165x64.Idx → EReal) (V1 m ρ c main_v22 : S1x64.Idx → EReal) (V1 m ρ c main_arg4 : S165x64.Idx → EReal) = _
  rw [in_v21 m ρ c, in_arg0 m ρ c, in_arg2 m ρ c, in_v22 m ρ c, in_arg4 m ρ c]

/-! ## What the second stretch reads: nothing the first region wrote, except the hidden features -/

theorem mid_v1 : W2 m ρ c (Proc.devRef .tc main_v1) = Cert.ReferenceIdeal.Read.val_main_v1 (F := Ideal) (a1 m c) :=
  (W2_of_ne m ρ c main_v1 (by decide)).trans (by
    show StableHlo.after hostOps0 (W0 m ρ c) (Proc.devRef .tc main_v1) = _
    after_results_simp <;> rfl)

theorem mid_v3 : W2 m ρ c (Proc.devRef .tc main_v3) = Cert.ReferenceIdeal.Read.val_main_v3 (F := Ideal) (a1 m c) :=
  (W2_of_ne m ρ c main_v3 (by decide)).trans (by
    show StableHlo.after hostOps0 (W0 m ρ c) (Proc.devRef .tc main_v3) = _
    after_results_simp <;> rfl)

theorem mid_arg5 : (W2 m ρ c (Proc.devRef .tc main_arg5) : S64x64.Idx → EReal) = a5 m c :=
  (W2_of_ne m ρ c main_arg5 (by decide)).trans (by
    show StableHlo.after hostOps0 (W0 m ρ c) (Proc.devRef .tc main_arg5) = _
    after_results_simp <;> rfl)

theorem mid_arg6 : (W2 m ρ c (Proc.devRef .tc main_arg6) : S64.Idx → EReal) = a6 m c :=
  (W2_of_ne m ρ c main_arg6 (by decide)).trans (by
    show StableHlo.after hostOps0 (W0 m ρ c) (Proc.devRef .tc main_arg6) = _
    after_results_simp <;> rfl)

theorem mid_arg7 : (W2 m ρ c (Proc.devRef .tc main_arg7) : S64x64.Idx → EReal) = a7 m c :=
  (W2_of_ne m ρ c main_arg7 (by decide)).trans (by
    show StableHlo.after hostOps0 (W0 m ρ c) (Proc.devRef .tc main_arg7) = _
    after_results_simp <;> rfl)

theorem mid_arg8 : (W2 m ρ c (Proc.devRef .tc main_arg8) : S64x2.Idx → EReal) = a8 m c :=
  (W2_of_ne m ρ c main_arg8 (by decide)).trans (by
    show StableHlo.after hostOps0 (W0 m ρ c) (Proc.devRef .tc main_arg8) = _
    after_results_simp <;> rfl)

theorem mid_arg9 : (W2 m ρ c (Proc.devRef .tc main_arg9) : S2.Idx → EReal) = a9 m c :=
  (W2_of_ne m ρ c main_arg9 (by decide)).trans (by
    show StableHlo.after hostOps0 (W0 m ρ c) (Proc.devRef .tc main_arg9) = _
    after_results_simp <;> rfl)

/-! ## What the second region finds -/

theorem in2_v41 : (V3 m ρ c main_v41 : S100000x64.Idx → EReal) = agg64 (hid m c) (a1 m c) := by
  show StableHlo.after hostOps1 (W2 m ρ c) (Proc.devRef .tc main_v41) = _
  after_results_simp
  rw [mid_v1 m ρ c, mid_v3 m ρ c, hidden m ρ c]
  rfl

theorem in2_v23 : (V3 m ρ c main_v23 : S100000x64.Idx → EReal) = hid m c := by
  show StableHlo.after hostOps1 (W2 m ρ c) (Proc.devRef .tc main_v23) = _
  after_results_simp
  exact hidden m ρ c

theorem in2_arg5 : (V3 m ρ c main_arg5 : S64x64.Idx → EReal) = a5 m c := by
  show StableHlo.after hostOps1 (W2 m ρ c) (Proc.devRef .tc main_arg5) = _
  after_results_simp
  exact mid_arg5 m ρ c

theorem in2_arg7 : (V3 m ρ c main_arg7 : S64x64.Idx → EReal) = a7 m c := by
  show StableHlo.after hostOps1 (W2 m ρ c) (Proc.devRef .tc main_arg7) = _
  after_results_simp
  exact mid_arg7 m ρ c

theorem in2_arg8 : (V3 m ρ c main_arg8 : S64x2.Idx → EReal) = a8 m c := by
  show StableHlo.after hostOps1 (W2 m ρ c) (Proc.devRef .tc main_arg8) = _
  after_results_simp
  exact mid_arg8 m ρ c

theorem in2_v42 : (V3 m ρ c main_v42 : S1x64.Idx → EReal) = row (a6 m c) := by
  show StableHlo.after hostOps1 (W2 m ρ c) (Proc.devRef .tc main_v42) = _
  after_results_simp
  rw [mid_arg6 m ρ c]
  exact cast_row _ _

theorem in2_v43 : (V3 m ρ c main_v43 : S1x2.Idx → EReal) = row (a9 m c) := by
  show StableHlo.after hostOps1 (W2 m ρ c) (Proc.devRef .tc main_v43) = _
  after_results_simp
  rw [mid_arg9 m ρ c]
  exact cast_row _ _

/-! ## What the second region leaves: the result -/

/-- The kernel program's result array after the run is the specification of the argument arrays. -/
theorem result : ((dat1 (V3 m ρ) c).arrAt 7 cfg1.N : S100000x2.Idx → EReal)
    = spec (a0 m c) (a1 m c) (a2 m c) (a3 m c) (a4 m c) (a5 m c) (a6 m c) (a7 m c) (a8 m c) (a9 m c) := by
  refine (Region1.final (V3 m ρ) c).trans ?_
  show affine (sage (V3 m ρ c main_v41 : S100000x64.Idx → EReal) (V3 m ρ c main_v23 : S100000x64.Idx → EReal)
      (V3 m ρ c main_arg5 : S64x64.Idx → EReal) (V3 m ρ c main_v42 : S1x64.Idx → EReal) (V3 m ρ c main_arg7 : S64x64.Idx → EReal))
    (V3 m ρ c main_arg8 : S64x2.Idx → EReal) (V3 m ρ c main_v43 : S1x2.Idx → EReal) = _
  rw [in2_v41 m ρ c, in2_v23 m ρ c, in2_arg5 m ρ c, in2_v42 m ρ c, in2_arg7 m ρ c, in2_arg8 m ρ c, in2_v43 m ρ c]
  rfl

end Cert.KernelIdeal.Chain

end
-- ==== Proof.lean ====
/-
  A two-layer mean-aggregating graph convolution with a linear classifier, over 100000 nodes and 1600000 edges:
  the kernel program against its plain reference, equal at the ideal values.

  Both programs compute, for node features x, edge list e, weights W1l, W1r, W2l, W2r, Wc and biases b1, b2, bc,

      h   = relu( mean_e(x) · W1l + b1 + x · W1r )
      out = relu( mean_e(h) · W2l + b2 + h · W2r ) · Wc + bc ,

  where mean_e averages a node's in-neighbours (gather along the sources, scatter-add at the destinations, divide by the
  in-degree clipped below at 1).  The reference does everything with host operations.  The kernel program does the two
  aggregations with the SAME host operations and the dense stages in two kernel regions, each over 20 blocks of 5000
  rows, rounding its operands to bf16 on the way into the matrix unit.  At the ideal values a rounding is the identity,
  a matrix-unit product into a zero accumulator and a host product are the same sum over the contracted axis, and a
  block of rows of a dense stage is the same rows of that stage of the whole arrays; the aggregations are the same
  terms of equal operands.  So both result arrays are one function (`spec`) of the ten argument arrays.  No law of the
  extended reals that could fail at an infinity is used (only congruence), so the precondition is never opened.

  The three frames are the generated ones (the reference's is its generated run with the result dropped); the
  idealization rewrote nothing, so there is nothing to preserve.
-/
import proofs.«105164_j81226421502183_1_alg».proof.Defs
import proofs.«105164_j81226421502183_1_alg».proof.Proof.Gen.Kernel
import proofs.«105164_j81226421502183_1_alg».proof.Proof.Gen.Kernel.Skeleton
import proofs.«105164_j81226421502183_1_alg».proof.Proof.Gen.Kernel.Launch
import proofs.«105164_j81226421502183_1_alg».proof.Proof.Gen.Kernel.Points
import proofs.«105164_j81226421502183_1_alg».proof.Proof.Gen.Kernel.Frame
import proofs.«105164_j81226421502183_1_alg».proof.Proof.Gen.KernelIdeal
import proofs.«105164_j81226421502183_1_alg».proof.Proof.Gen.KernelIdeal.Skeleton
import proofs.«105164_j81226421502183_1_alg».proof.Proof.Gen.KernelIdeal.Launch
import proofs.«105164_j81226421502183_1_alg».proof.Proof.Gen.KernelIdeal.Points
import proofs.«105164_j81226421502183_1_alg».proof.Proof.Gen.KernelIdeal.Frame
import proofs.«105164_j81226421502183_1_alg».proof.Proof.Gen.ReferenceIdeal
import proofs.«105164_j81226421502183_1_alg».proof.Proof.Gen.Pre_finite_inputs
import proofs.«105164_j81226421502183_1_alg».proof.Proof.Gen.ReferenceIdeal.Run
import proofs.«105164_j81226421502183_1_alg».proof.Proof.Gen.ReferenceIdeal.Read
import proofs.«105164_j81226421502183_1_alg».proof.Proof.KernelRun
import proofs.«105164_j81226421502183_1_alg».proof.Proof.KernelValue
import proofs.«105164_j81226421502183_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result arrays at `spec` of the (equal) argument arrays. -/
theorem algebraic : Cert.algebraic_KernelIdeal_ReferenceIdeal := by
  intro m ρ m' ρ' _ hagree
  refine ⟨fun c => Cert.ReferenceIdeal.RefValue.spec (Cert.KernelIdeal.Chain.a0 m c) (Cert.KernelIdeal.Chain.a1 m c)
      (Cert.KernelIdeal.Chain.a2 m c) (Cert.KernelIdeal.Chain.a3 m c) (Cert.KernelIdeal.Chain.a4 m c) (Cert.KernelIdeal.Chain.a5 m c)
      (Cert.KernelIdeal.Chain.a6 m c) (Cert.KernelIdeal.Chain.a7 m c) (Cert.KernelIdeal.Chain.a8 m c) (Cert.KernelIdeal.Chain.a9 m c), ?_, ?_⟩
  · exact (θ_run Cert.KernelIdeal.defs _ _).mono
      (fun r h c => ⟨(h c).1.trans (Cert.KernelIdeal.Chain.result m ρ c), (h c).2⟩)
      (Cert.KernelIdeal.Whole.run_out (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9⟩ := hagree c
    rw [(h c).1, Cert.ReferenceIdeal.Read.val_main_v57_eq, Cert.ReferenceIdeal.RefValue.result_eq,
      e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
